-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192 : S_.BroadcastsInDim S8192 (![] : Fin 0 → Fin S8192.rank)
  reducesTo_S8192_S_d0 : S8192.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S2x2048x2048 .f32) (main_arg1 : IVec S8192x2048 32) (main_arg2 : FVec F S8192 .f32) (main_arg3 : IVec S8192x2048 32) (main_arg4 : FVec F S8192 .f32) (main_arg5 : IVec S2048x8192 32) (main_arg6 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S2048 .f32 := Host.absf main_arg6
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S2x2048x2048 : Shape := ⟨3, ![2, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S4096x2048 : Shape := ⟨2, ![4096, 2048]⟩
abbrev S512x2048 : Shape := ⟨2, ![512, 2048]⟩
abbrev S128x2048 : Shape := ⟨2, ![128, 2048]⟩
abbrev S128 : Shape := ⟨1, ![128]⟩
abbrev S2048x128 : Shape := ⟨2, ![2048, 128]⟩
abbrev S128x1 : Shape := ⟨2, ![128, 1]⟩
abbrev S512x128 : Shape := ⟨2, ![512, 128]⟩
abbrev S2048x1 : Shape := ⟨2, ![2048, 1]⟩

abbrev nBuf : Space → Nat
  | .hbm => 10
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .i32⟩
  | .hbm, ⟨2, _⟩ => ⟨S8192, .f32⟩
  | .hbm, ⟨3, _⟩ => ⟨S8192x2048, .i32⟩
  | .hbm, ⟨4, _⟩ => ⟨S8192, .f32⟩
  | .hbm, ⟨5, _⟩ => ⟨S2048x8192, .i32⟩
  | .hbm, ⟨6, _⟩ => ⟨S2048, .f32⟩
  | .hbm, ⟨7, _⟩ => ⟨S4096x2048, .f32⟩
  | .hbm, ⟨8, _⟩ => ⟨S4096x2048, .f32⟩
  | .hbm, ⟨9, _⟩ => ⟨S2x2048x2048, .f32⟩
  | .local _ .vmem, ⟨0, _⟩ => ⟨S512x2048, .f32⟩
  | .local _ .vmem, ⟨1, _⟩ => ⟨S512x2048, .f32⟩
  | .local _ .vmem, ⟨2, _⟩ => ⟨S128x2048, .i32⟩
  | .local _ .vmem, ⟨3, _⟩ => ⟨S128x2048, .i32⟩
  | .local _ .vmem, ⟨4, _⟩ => ⟨S128, .f32⟩
  | .local _ .vmem, ⟨5, _⟩ => ⟨S128, .f32⟩
  | .local _ .vmem, ⟨6, _⟩ => ⟨S128x2048, .i32⟩
  | .local _ .vmem, ⟨7, _⟩ => ⟨S128x2048, .i32⟩
  | .local _ .vmem, ⟨8, _⟩ => ⟨S128, .f32⟩
  | .local _ .vmem, ⟨9, _⟩ => ⟨S128, .f32⟩
  | .local _ .vmem, ⟨10, _⟩ => ⟨S2048x128, .i32⟩
  | .local _ .vmem, ⟨11, _⟩ => ⟨S2048x128, .i32⟩
  | .local _ .vmem, ⟨12, _⟩ => ⟨S2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 64], ![false, false]⟩

def k0_cond2 (i : grid0.Coords) : BitVec 1 :=
  let arg1 : BitVec 32 := BitVec.ofNat 32 (i 1).val
  let c63_i32 : BitVec 32 := 63#32
  let v48 : BitVec 1 := Scalar.cmpi .eq arg1 c63_i32
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x2048x2048_S4096x2048 : S2x2048x2048.ShapeCasts S4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S128_S128_0 : ∀ a, (![0] : Fin 1 → Nat) a + S128.size a ≤ S128.size a
  h_S128 : 0 < S128.numel
  shapeCasts_S128_S128x1 : S128.ShapeCasts S128x1
  broadcasts_S128x1_S128x2048 : S128x1.Broadcasts S128x2048
  transposes_S128x2048_p1_0_S2048x128 : S128x2048.Transposes [1, 0] S2048x128
  inb_S2048x128_S2048x128_0_0 : ∀ a, (![0, 0] : Fin 2 → Nat) a + S2048x128.size a ≤ S2048x128.size a
  h_S2048x128 : 0 < S2048x128.numel
  inb_S2048_S2048_0 : ∀ a, (![0] : Fin 1 → Nat) a + S2048.size a ≤ S2048.size a
  h_S2048 : 0 < S2048.numel
  shapeCasts_S2048_S2048x1 : S2048.ShapeCasts S2048x1
  broadcasts_S2048x1_S2048x128 : S2048x1.Broadcasts S2048x128
  transposes_S2048x128_p1_0_S128x2048 : S2048x128.Transposes [1, 0] S128x2048
  shapeCasts_S4096x2048_S2x2048x2048 : S4096x2048.ShapeCasts S2x2048x2048
  dot_S512x2048_S2048x128_S512x128_1_0_0_1_n_n_wf : DotDims.WF S512x2048 S2048x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .i32 = 32 ∨ (Rect.block (s := S8192x2048) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S8192.size a
  hwx0_2 : ∀ i : grid0.Coords, EltTy.bits .f32 = 32 ∨ (Rect.block (s := S8192) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S8192x2048.size a
  hwx0_3 : ∀ i : grid0.Coords, EltTy.bits .i32 = 32 ∨ (Rect.block (s := S8192x2048) S128x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S8192.size a
  hwx0_4 : ∀ i : grid0.Coords, EltTy.bits .f32 = 32 ∨ (Rect.block (s := S8192) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x8192.size a
  hwx0_5 : ∀ i : grid0.Coords, EltTy.bits .i32 = 32 ∨ (Rect.block (s := S2048x8192) S2048x128.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S4096x2048.size a
  hwx0_7 : ∀ i : grid0.Coords, EltTy.bits .f32 = 32 ∨ (Rect.block (s := S4096x2048) S512x2048.size (cc0_transform_7 i) (hinb0_7 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S_ : Shape := ⟨0, ![]⟩
abbrev S8192x1 : Shape := ⟨2, ![8192, 1]⟩
abbrev S2048x1 : Shape := ⟨2, ![2048, 1]⟩
abbrev S2x2048x8192 : Shape := ⟨3, ![2, 2048, 8192]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .i32⟩
  | .hbm, ⟨2, _⟩ => ⟨S8192, .f32⟩
  | .hbm, ⟨3, _⟩ => ⟨S8192x2048, .i32⟩
  | .hbm, ⟨4, _⟩ => ⟨S8192, .f32⟩
  | .hbm, ⟨5, _⟩ => ⟨S2048x8192, .i32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x1, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S2048x8192, .f32⟩
  | .hbm, ⟨22, _⟩ => ⟨S_, .f32⟩
  | .hbm, ⟨23, _⟩ => ⟨S2048x8192, .f32⟩
  | .hbm, ⟨24, _⟩ => ⟨S2048x8192, .f32⟩
  | .hbm, ⟨25, _⟩ => ⟨S2048x1, .f32⟩
  | .hbm, ⟨26, _⟩ => ⟨S2048x8192, .f32⟩
  | .hbm, ⟨27, _⟩ => ⟨S2048x8192, .f32⟩
  | .hbm, ⟨28, _⟩ => ⟨S2x2048x8192, .f32⟩
  | .hbm, ⟨29, _⟩ => ⟨S2x2048x8192, .f32⟩
  | .hbm, ⟨30, _⟩ => ⟨S2x2048x8192, .f32⟩
  | .hbm, ⟨31, _⟩ => ⟨S2x2048x8192, .f32⟩
  | .hbm, ⟨32, _⟩ => ⟨S_, .f32⟩
  | .hbm, ⟨33, _⟩ => ⟨S2x2048x8192, .f32⟩
  | .hbm, ⟨34, _⟩ => ⟨S2x2048x8192, .f32⟩
  | .hbm, ⟨35, _⟩ => ⟨S_, .f32⟩
  | .hbm, ⟨36, _⟩ => ⟨S2x2048x8192, .f32⟩
  | .hbm, ⟨37, _⟩ => ⟨S2x2048x8192, .f32⟩
  | .hbm, ⟨38, _⟩ => ⟨S2x2048x8192, .f32⟩
  | .hbm, ⟨39, _⟩ => ⟨S2x2048x8192, .f32⟩
  | .hbm, ⟨40, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S_S2048x8192 : S_.BroadcastsInDim S2048x8192 (![] : Fin 0 → Fin S2048x8192.rank)
  bcast_S2048_S2048x1_0 : S2048.BroadcastsInDim S2048x1 (![0] : Fin 1 → Fin S2048x1.rank)
  bcast_S2048x1_S2048x8192_0_1 : S2048x1.BroadcastsInDim S2048x8192 (![0, 1] : Fin 2 → Fin S2048x8192.rank)
  bcast_S_S2x2048x8192 : S_.BroadcastsInDim S2x2048x8192 (![] : Fin 0 → Fin S2x2048x8192.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.Pieces.lean ====
/-
  What one grid step leaves behind. The body keeps a running block of partial outputs (512 rows by 2048 columns) in a
  scratch buffer that lives across the grid. At every step it adds to that block the contribution of the step's 128
  hidden channels (`step`: the running block plus the product of the step's hidden activations with the step's down
  weights); at the first step of a row tile the block is first set to zero, and at the last step the finished block is
  also copied to the output. Read back from the stores of each of the three kinds of step, the scratch (and, at the
  last step, the output) holds exactly `step` of what the step loaded.
-/
import proofs.«179088_j27650999451939_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a; rfl

theorem hz : (![0, 0] : Fin 2 → Nat) = fun _ => 0 := funext fun a => by fin_cases a <;> rfl

/-- One step of the accumulation: the running block `acc` plus the contribution of this step's hidden channels, from
    the step's input rows `x0`, gate and up weight rows `x1`, `x3` with their scales `x2`, `x4`, and down weight columns
    `x5` with their scales `x6`. -/
def step (x0 : Vec F S512x2048 .f32) (x1 : Vec F S128x2048 .i32) (x2 : Vec F S128 .f32) (x3 : Vec F S128x2048 .i32) (x4 : Vec F S128 .f32) (x5 : Vec F S2048x128 .i32) (x6 : Vec F S2048 .f32) (acc : Vec F S512x2048 .f32) : Vec F S512x2048 .f32 :=
  k0_pay1 (k0_pay3 x0 x1 x2 x3 x4) (k0_pay4 x5) (k0_pay5 x6) acc

/-- A middle step leaves in the scratch one step over what it found there. -/
theorem scratch_mid (c : Dev nD) (i : grid0.Coords) (arg2 : Memref sig .tc .vmem S512x2048 .f32) (harg2 : arg2.IsWhole) (arg3 : Memref sig .tc .vmem S128x2048 .i32) (harg3 : arg3.IsWhole) (arg4 : Memref sig .tc .vmem S128 .f32) (harg4 : arg4.IsWhole) (arg5 : Memref sig .tc .vmem S128x2048 .i32) (harg5 : arg5.IsWhole) (arg6 : Memref sig .tc .vmem S128 .f32) (harg6 : arg6.IsWhole) (arg7 : Memref sig .tc .vmem S2048x128 .i32) (harg7 : arg7.IsWhole) (arg8 : Memref sig .tc .vmem S2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i) (x0 : Vec F S512x2048 .f32) (x1 : Vec F S128x2048 .i32) (x2 : Vec F S128 .f32) (x3 : Vec F S128x2048 .i32) (x4 : Vec F S128 .f32) (x5 : Vec F S2048x128 .i32) (x6 : Vec F S2048 .f32) (xs0 : Vec F S512x2048 .f32) :
    sout0_B_0 c i arg2 harg2 arg3 harg3 arg4 harg4 arg5 harg5 arg6 harg6 arg7 harg7 arg8 harg8 arg9 harg9 arg10 harg10 hc0 hc1 x0 x1 x2 x3 x4 x5 x6 xs0 = step x0 x1 x2 x3 x4 x5 x6 xs0 := by
  unfold sout0_B_0 step
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S512x2048) hz, View.ld_unit_zero (S := S128x2048) hz, View.ld_unit_zero (S := S2048x128) hz, View.ld_unit_zero (S := S128) hz1, View.ld_unit_zero (S := S2048) hz1]

/-- A first step sets the scratch to zero and then leaves one step over that zero block. -/
theorem scratch_first (c : Dev nD) (i : grid0.Coords) (arg2 : Memref sig .tc .vmem S512x2048 .f32) (harg2 : arg2.IsWhole) (arg3 : Memref sig .tc .vmem S128x2048 .i32) (harg3 : arg3.IsWhole) (arg4 : Memref sig .tc .vmem S128 .f32) (harg4 : arg4.IsWhole) (arg5 : Memref sig .tc .vmem S128x2048 .i32) (harg5 : arg5.IsWhole) (arg6 : Memref sig .tc .vmem S128 .f32) (harg6 : arg6.IsWhole) (arg7 : Memref sig .tc .vmem S2048x128 .i32) (harg7 : arg7.IsWhole) (arg8 : Memref sig .tc .vmem S2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i) (x0 : Vec F S512x2048 .f32) (x1 : Vec F S128x2048 .i32) (x2 : Vec F S128 .f32) (x3 : Vec F S128x2048 .i32) (x4 : Vec F S128 .f32) (x5 : Vec F S2048x128 .i32) (x6 : Vec F S2048 .f32) :
    sout0_A_0 c i arg2 harg2 arg3 harg3 arg4 harg4 arg5 harg5 arg6 harg6 arg7 harg7 arg8 harg8 arg9 harg9 arg10 harg10 hc0 hc1 x0 x1 x2 x3 x4 x5 x6 = step x0 x1 x2 x3 x4 x5 x6 k0_pay2 := by
  unfold sout0_A_0 step
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg10.read_unread, View.ld_unit_zero (S := S512x2048) hz, View.ld_unit_zero (S := S128x2048) hz, View.ld_unit_zero (S := S2048x128) hz, View.ld_unit_zero (S := S128) hz1, View.ld_unit_zero (S := S2048) hz1]

/-- A last step leaves in the scratch one step over what it found there, -/
theorem scratch_last (c : Dev nD) (i : grid0.Coords) (arg2 : Memref sig .tc .vmem S512x2048 .f32) (harg2 : arg2.IsWhole) (arg3 : Memref sig .tc .vmem S128x2048 .i32) (harg3 : arg3.IsWhole) (arg4 : Memref sig .tc .vmem S128 .f32) (harg4 : arg4.IsWhole) (arg5 : Memref sig .tc .vmem S128x2048 .i32) (harg5 : arg5.IsWhole) (arg6 : Memref sig .tc .vmem S128 .f32) (harg6 : arg6.IsWhole) (arg7 : Memref sig .tc .vmem S2048x128 .i32) (harg7 : arg7.IsWhole) (arg8 : Memref sig .tc .vmem S2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i) (x0 : Vec F S512x2048 .f32) (x1 : Vec F S128x2048 .i32) (x2 : Vec F S128 .f32) (x3 : Vec F S128x2048 .i32) (x4 : Vec F S128 .f32) (x5 : Vec F S2048x128 .i32) (x6 : Vec F S2048 .f32) (xs0 : Vec F S512x2048 .f32) :
    sout0_C_0 c i arg2 harg2 arg3 harg3 arg4 harg4 arg5 harg5 arg6 harg6 arg7 harg7 arg8 harg8 arg9 harg9 arg10 harg10 hc0 hc1 x0 x1 x2 x3 x4 x5 x6 xs0 = step x0 x1 x2 x3 x4 x5 x6 xs0 := by
  unfold sout0_C_0 step
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S512x2048) hz, View.ld_unit_zero (S := S128x2048) hz, View.ld_unit_zero (S := S2048x128) hz, View.ld_unit_zero (S := S128) hz1, View.ld_unit_zero (S := S2048) hz1]

/-- and copies the same block to the output. -/
theorem output_last (c : Dev nD) (i : grid0.Coords) (arg2 : Memref sig .tc .vmem S512x2048 .f32) (harg2 : arg2.IsWhole) (arg3 : Memref sig .tc .vmem S128x2048 .i32) (harg3 : arg3.IsWhole) (arg4 : Memref sig .tc .vmem S128 .f32) (harg4 : arg4.IsWhole) (arg5 : Memref sig .tc .vmem S128x2048 .i32) (harg5 : arg5.IsWhole) (arg6 : Memref sig .tc .vmem S128 .f32) (harg6 : arg6.IsWhole) (arg7 : Memref sig .tc .vmem S2048x128 .i32) (harg7 : arg7.IsWhole) (arg8 : Memref sig .tc .vmem S2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i) (x0 : Vec F S512x2048 .f32) (x1 : Vec F S128x2048 .i32) (x2 : Vec F S128 .f32) (x3 : Vec F S128x2048 .i32) (x4 : Vec F S128 .f32) (x5 : Vec F S2048x128 .i32) (x6 : Vec F S2048 .f32) (xs0 : Vec F S512x2048 .f32) :
    out0_C_7 c i arg2 harg2 arg3 harg3 arg4 harg4 arg5 harg5 arg6 harg6 arg7 harg7 arg8 harg8 arg9 harg9 arg10 harg10 hc0 hc1 x0 x1 x2 x3 x4 x5 x6 xs0 = step x0 x1 x2 x3 x4 x5 x6 xs0 := by
  unfold out0_C_7 step
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg6.read_unread, harg7.read_unread, harg8.read_unread, harg10.read_unread, View.ld_unit_zero (S := S512x2048) hz, View.ld_unit_zero (S := S128x2048) hz, View.ld_unit_zero (S := S2048x128) hz, View.ld_unit_zero (S := S128) hz1, View.ld_unit_zero (S := S2048) hz1]

end Cert.KernelIdeal.Pieces

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.LibBlockRuns.lean ====
/-
  Accumulating a blocked sum. A sum over n = K · B indices, cut into K consecutive blocks of B indices, can be
  accumulated block by block: `block K B h f j` is the sum of block j (zero past the last block), and the blocks
  `0, …, K − 1` accumulated in order reach the whole sum — in any commutative additive monoid, for any K and B.
  (A running total that adds one block's sum per step holds, after step j, the sum of blocks `0 … j`, and after the
  last step the whole sum.)
-/
import proofs.«179088_j27650999451939_1_alg».proof.Proof.LibBlockSumGen
import Mathlib.Algebra.BigOperators.Fin
import Mathlib.Algebra.BigOperators.Intervals

open scoped BigOperators

namespace Cert.LibBlockRuns

open Cert.LibBlockSumGen

/-- Block `j` of a sum over `n = K · B` indices: the sum of the `B` terms at the indices `B·j, …, B·j + B − 1`, and zero
    when `j` is past the last block. -/
def block {M : Type*} [AddCommMonoid M] {n : ℕ} (K B : ℕ) (h : n = K * B) (f : Fin n → M) (j : ℕ) : M :=
  if hj : j < K then ∑ l : Fin B, f ⟨B * j + l.val, h ▸ block_index_lt (⟨j, hj⟩ : Fin K) l⟩ else 0

/-- A block inside the range is its `B` terms. -/
theorem block_of_lt {M : Type*} [AddCommMonoid M] {n : ℕ} (K B : ℕ) (h : n = K * B) (f : Fin n → M) (j : ℕ) (hj : j < K) :
    block K B h f j = ∑ l : Fin B, f ⟨B * j + l.val, h ▸ block_index_lt (⟨j, hj⟩ : Fin K) l⟩ :=
  dif_pos hj

/-- The blocks `0, …, j` accumulated are the blocks `0, …, j − 1` accumulated, plus block `j`. -/
theorem sum_range_succ_block {M : Type*} [AddCommMonoid M] {n : ℕ} (K B : ℕ) (h : n = K * B) (f : Fin n → M) (j : ℕ) :
    ∑ i ∈ Finset.range (j + 1), block K B h f i = ∑ i ∈ Finset.range j, block K B h f i + block K B h f j :=
  Finset.sum_range_succ _ _

/-- All `K` blocks accumulated are the whole sum. -/
theorem sum_range_block {M : Type*} [AddCommMonoid M] {n K B : ℕ} (h : n = K * B) (f : Fin n → M) :
    ∑ j ∈ Finset.range K, block K B h f j = ∑ p : Fin n, f p := by
  rw [sum_blocks h f, Finset.sum_range]
  exact Finset.sum_congr rfl fun k _ => dif_pos k.isLt

end Cert.LibBlockRuns
-- ==== Proof.Spec.lean ====
/-
  The gated feed-forward block with quantized weights, as mathematics over the extended reals.

  A weight is stored as an integer `w` with a per-output-channel scale `s`; its value is `(w − 128) · s` (`deq`).
  For one row `x` of the input (K entries) and C hidden channels:
    gate and up pre-activations   `proj x W s i = ∑ₕ x h · deq (W i h) (s i)`,
    the hidden unit               `hid i = (g · logistic g) · u`   with `g` the gate and `u` the up pre-activation,
    one output entry              `outAt q = ∑ᵢ hid i · deq (Wd q i) (sd q)`.
  The sum over the C hidden channels may be taken block by block: with C = N · B, the output entry is the blocks
  `0, …, N − 1` accumulated in order (`outAt_eq_sum_range`), and block `j` is the same formula evaluated on the rows
  `B·j, …, B·j + B − 1` of the gate and up weights and the matching columns of the down weights (`outAt_block`). Only
  commutativity and associativity of the sum are used, so no entry needs to be finite.
-/
import Idealize.ShloMosaic.PureOps.Ideal
import Idealize.ShloMosaic.PureOps.Ideal.Laws
import Idealize.ShloMosaic.Lib.ValueIdx
import proofs.«179088_j27650999451939_1_alg».proof.Proof.LibBlockRuns

noncomputable section

namespace Cert.GatedMlp

open Idealize.ShloMosaic Idealize.ShloMosaic.ValueIdx
open Cert.LibBlockSumGen Cert.LibBlockRuns
open scoped BigOperators

/-- The single-precision word `0x3F800000` is the number one. -/
theorem one_bits : Ideal.ofBits .f32 0x3F800000#32 = 1 := by
  simp [Ideal.ofBits, Ideal.ieee, -EReal.coe_mul]; norm_num

/-- A dequantized weight: the stored integer read signed, less the zero point 128, times the channel's scale. -/
def deq (w : BitVec 32) (s : EReal) : EReal :=
  (FloatOps.sitofp (F := Ideal) .f32 w - Ideal.ofBits .f32 0x43000000#32) * s

/-- The row `x` against output channel `i` of the dequantized weights `W` (scales `s`). -/
def proj {C K : ℕ} (x : Fin K → EReal) (W : (⟨2, ![C, K]⟩ : Shape).Idx → BitVec 32)
    (s : (⟨1, ![C]⟩ : Shape).Idx → EReal) (i : Fin C) : EReal :=
  ∑ h : Fin K, x h * deq (W (ix2 i h)) (s (ix1 i))

/-- Hidden channel `i`: the gate pre-activation times its logistic, times the up pre-activation. -/
def hid {C K : ℕ} (x : Fin K → EReal) (Wg : (⟨2, ![C, K]⟩ : Shape).Idx → BitVec 32) (sg : (⟨1, ![C]⟩ : Shape).Idx → EReal)
    (Wu : (⟨2, ![C, K]⟩ : Shape).Idx → BitVec 32) (su : (⟨1, ![C]⟩ : Shape).Idx → EReal) (i : Fin C) : EReal :=
  (proj x Wg sg i * Ideal.logistic (proj x Wg sg i)) * proj x Wu su i

/-- One term of the down projection: hidden channel `i` times the dequantized down weight `(q, i)`. -/
def term {C K Q : ℕ} (x : Fin K → EReal) (Wg : (⟨2, ![C, K]⟩ : Shape).Idx → BitVec 32) (sg : (⟨1, ![C]⟩ : Shape).Idx → EReal)
    (Wu : (⟨2, ![C, K]⟩ : Shape).Idx → BitVec 32) (su : (⟨1, ![C]⟩ : Shape).Idx → EReal)
    (Wd : (⟨2, ![Q, C]⟩ : Shape).Idx → BitVec 32) (sd : (⟨1, ![Q]⟩ : Shape).Idx → EReal) (q : Fin Q) (i : Fin C) : EReal :=
  hid x Wg sg Wu su i * deq (Wd (ix2 q i)) (sd (ix1 q))

/-- Output entry `q` of the row `x`: the hidden channels against row `q` of the dequantized down weights. -/
def outAt {C K Q : ℕ} (x : Fin K → EReal) (Wg : (⟨2, ![C, K]⟩ : Shape).Idx → BitVec 32) (sg : (⟨1, ![C]⟩ : Shape).Idx → EReal)
    (Wu : (⟨2, ![C, K]⟩ : Shape).Idx → BitVec 32) (su : (⟨1, ![C]⟩ : Shape).Idx → EReal)
    (Wd : (⟨2, ![Q, C]⟩ : Shape).Idx → BitVec 32) (sd : (⟨1, ![Q]⟩ : Shape).Idx → EReal) (q : Fin Q) : EReal :=
  ∑ i : Fin C, term x Wg sg Wu su Wd sd q i

/-- The whole block: for a batch of `A × S` input rows, entry (b, s, q) is output `q` of input row (b, s). -/
def mlp {A S C K Q : ℕ} (x : (⟨3, ![A, S, K]⟩ : Shape).Idx → EReal) (Wg : (⟨2, ![C, K]⟩ : Shape).Idx → BitVec 32)
    (sg : (⟨1, ![C]⟩ : Shape).Idx → EReal) (Wu : (⟨2, ![C, K]⟩ : Shape).Idx → BitVec 32) (su : (⟨1, ![C]⟩ : Shape).Idx → EReal)
    (Wd : (⟨2, ![Q, C]⟩ : Shape).Idx → BitVec 32) (sd : (⟨1, ![Q]⟩ : Shape).Idx → EReal) :
    (⟨3, ![A, S, Q]⟩ : Shape).Idx → EReal :=
  fun i => outAt (fun h => x (ix3 (i 0) (i 1) h)) Wg sg Wu su Wd sd (i 2)

/-- The whole block read at (b, s, q). -/
theorem mlp_apply {A S C K Q : ℕ} (x : (⟨3, ![A, S, K]⟩ : Shape).Idx → EReal) (Wg : (⟨2, ![C, K]⟩ : Shape).Idx → BitVec 32)
    (sg : (⟨1, ![C]⟩ : Shape).Idx → EReal) (Wu : (⟨2, ![C, K]⟩ : Shape).Idx → BitVec 32) (su : (⟨1, ![C]⟩ : Shape).Idx → EReal)
    (Wd : (⟨2, ![Q, C]⟩ : Shape).Idx → BitVec 32) (sd : (⟨1, ![Q]⟩ : Shape).Idx → EReal) (b : Fin A) (s : Fin S) (q : Fin Q) :
    mlp x Wg sg Wu su Wd sd (ix3 b s q) = outAt (fun h => x (ix3 b s h)) Wg sg Wu su Wd sd q := rfl

/-- Hidden channel `l` of block `j`, as a channel of the whole: `B·j + l`. -/
def chan {C N B : ℕ} (hC : C = N * B) (j : ℕ) (hj : j < N) (l : Fin B) : Fin C :=
  ⟨B * j + l.val, hC ▸ block_index_lt (⟨j, hj⟩ : Fin N) l⟩

/-- The output entry is its `N` blocks of `B` hidden channels accumulated in order. -/
theorem outAt_eq_sum_range {C K Q N B : ℕ} (hC : C = N * B) (x : Fin K → EReal)
    (Wg : (⟨2, ![C, K]⟩ : Shape).Idx → BitVec 32) (sg : (⟨1, ![C]⟩ : Shape).Idx → EReal)
    (Wu : (⟨2, ![C, K]⟩ : Shape).Idx → BitVec 32) (su : (⟨1, ![C]⟩ : Shape).Idx → EReal)
    (Wd : (⟨2, ![Q, C]⟩ : Shape).Idx → BitVec 32) (sd : (⟨1, ![Q]⟩ : Shape).Idx → EReal) (q : Fin Q) :
    outAt x Wg sg Wu su Wd sd q = ∑ j ∈ Finset.range N, block N B hC (term x Wg sg Wu su Wd sd q) j :=
  (sum_range_block hC _).symm

/-- Block `j` of the output entry is the same formula on the block's own weights: rows `B·j + l` of the gate and up
    weights and scales, columns `B·j + l` of the down weights. -/
theorem outAt_block {C K Q N B : ℕ} (hC : C = N * B) (j : ℕ) (hj : j < N) (x : Fin K → EReal)
    (Wg : (⟨2, ![C, K]⟩ : Shape).Idx → BitVec 32) (sg : (⟨1, ![C]⟩ : Shape).Idx → EReal)
    (Wu : (⟨2, ![C, K]⟩ : Shape).Idx → BitVec 32) (su : (⟨1, ![C]⟩ : Shape).Idx → EReal)
    (Wd : (⟨2, ![Q, C]⟩ : Shape).Idx → BitVec 32) (sd : (⟨1, ![Q]⟩ : Shape).Idx → EReal)
    (Wg' : (⟨2, ![B, K]⟩ : Shape).Idx → BitVec 32) (sg' : (⟨1, ![B]⟩ : Shape).Idx → EReal)
    (Wu' : (⟨2, ![B, K]⟩ : Shape).Idx → BitVec 32) (su' : (⟨1, ![B]⟩ : Shape).Idx → EReal)
    (Wd' : (⟨2, ![Q, B]⟩ : Shape).Idx → BitVec 32)
    (hWg : ∀ (l : Fin B) (h : Fin K), Wg' (ix2 l h) = Wg (ix2 (chan hC j hj l) h))
    (hsg : ∀ l : Fin B, sg' (ix1 l) = sg (ix1 (chan hC j hj l)))
    (hWu : ∀ (l : Fin B) (h : Fin K), Wu' (ix2 l h) = Wu (ix2 (chan hC j hj l) h))
    (hsu : ∀ l : Fin B, su' (ix1 l) = su (ix1 (chan hC j hj l)))
    (hWd : ∀ (q : Fin Q) (l : Fin B), Wd' (ix2 q l) = Wd (ix2 q (chan hC j hj l))) (q : Fin Q) :
    outAt x Wg' sg' Wu' su' Wd' sd q = block N B hC (term x Wg sg Wu su Wd sd q) j := by
  rw [block_of_lt N B hC _ j hj]
  refine Finset.sum_congr rfl fun l _ => ?_
  show term x Wg' sg' Wu' su' Wd' sd q l = term x Wg sg Wu su Wd sd q (chan hC j hj l)
  unfold term hid proj
  simp only [hWg, hsg, hWu, hsu, hWd]

end Cert.GatedMlp

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.StepValue.lean ====
/-
  One step of the accumulation, entry by entry, at the ideal values.

  The step's 128 hidden channels are built from the step's input rows `x0` (512 rows of 2048 entries), the gate and up
  weight rows `x1`, `x3` (128 rows each, stored as integers) with their scales `x2`, `x4`, and the step's 128 columns `x5`
  of the down weights with the scales `x6` of the 2048 outputs. Rounding to the 16-bit format changes nothing at the
  ideal values, and a matrix product into a zero accumulator is the plain sum over its contracted axis. So:
    a dequantized gate or up weight, transposed for the product, at (h, l) is `deq (W (l, h)) (s l)`;
    a pre-activation at (p, l) is `proj` of row p of `x0` against channel l;
    a hidden activation at (p, l) is `hid` of row p at channel l;
    the step adds to the running block, at (p, q), `outAt` of row p at output q over the step's 128 channels.
-/
import proofs.«179088_j27650999451939_1_alg».proof.Proof.Gen.KernelIdeal.Skeleton
import proofs.«179088_j27650999451939_1_alg».proof.Proof.Spec
import proofs.«179088_j27650999451939_1_alg».proof.Proof.LibColumns
import proofs.«179088_j27650999451939_1_alg».proof.Proof.LibPlainDot
import Idealize.ShloMosaic.Lib.ValueLayout
import Idealize.ShloMosaic.Lib.Pipeline.Value

noncomputable section

namespace Cert.KernelIdeal.StepValue

open Idealize.ShloMosaic Idealize.ShloMosaic.ValueIdx
open Cert.KernelIdeal Cert.KernelIdeal.Gen
open Cert.GatedMlp Cert.Columns Cert.Lib.PlainDot
open scoped BigOperators

variable {F : FTy → Type} [FloatOps F]

/-- The dequantized weight rows `W` (scales `s`), rounded and transposed as the matrix product takes them. -/
def wcols (W : Vec F S128x2048 .i32) (s : Vec F S128 .f32) : FVec F S2048x128 .bf16 :=
  transpose S2048x128 [1, 0] (truncf .bf16 (mulf (subf (sitofp .f32 W) (broadcast S128x2048 (Scalar.ofBits .f32 0x43000000#32)))
    (broadcastTo S128x2048 (shapeCast S128x1 s shapeCasts_S128_S128x1) broadcasts_S128x1_S128x2048)) bitsLt_bf16_f32)
    transposes_S128x2048_p1_0_S2048x128

/-- The pre-activations of the step's 128 channels for the 512 rows: the rounded rows against the weights. -/
def pre (x0 : Vec F S512x2048 .f32) (W : Vec F S128x2048 .i32) (s : Vec F S128 .f32) : FVec F S512x128 .f32 :=
  matmul dot_S512x2048_S2048x128_S512x128_1_0_0_1_n_n none
    (truncf .bf16 (shapeCast S512x2048 x0 shapeCasts_S512x2048_S512x2048) bitsLt_bf16_f32) (wcols W s)
    (constant S512x128 .f32 0x00000000#32)

/-- The dequantized down weight columns, rounded and transposed as the second product takes them. -/
def dcols (x5 : Vec F S2048x128 .i32) (x6 : Vec F S2048 .f32) : FVec F S128x2048 .bf16 :=
  transpose S128x2048 [1, 0] (truncf .bf16 (mulf (k0_pay4 x5) (k0_pay5 x6)) bitsLt_bf16_f32) transposes_S2048x128_p1_0_S128x2048

/-- The hidden activations are the gate pre-activation times its logistic times the up pre-activation, rounded. -/
theorem hidden_eq (x0 : Vec F S512x2048 .f32) (x1 : Vec F S128x2048 .i32) (x2 : Vec F S128 .f32) (x3 : Vec F S128x2048 .i32) (x4 : Vec F S128 .f32) :
    k0_pay3 x0 x1 x2 x3 x4
      = truncf .bf16 (mulf (mulf (pre x0 x1 x2) (logistic (pre x0 x1 x2))) (pre x0 x3 x4)) bitsLt_bf16_f32 := rfl

/-- The step: the running block plus the hidden activations against the down weight columns. -/
theorem step_eq (v31 : FVec F S512x128 .bf16) (x5 : Vec F S2048x128 .i32) (x6 : Vec F S2048 .f32) (acc : Vec F S512x2048 .f32) :
    k0_pay1 v31 (k0_pay4 x5) (k0_pay5 x6) acc
      = shapeCast S512x2048 (addf acc (matmul dot_S512x128_S128x2048_S512x2048_1_0_0_1_n_n none v31 (dcols x5 x6)
          (constant S512x2048 .f32 0x00000000#32))) shapeCasts_S512x2048_S512x2048 := rfl

/-- The scale column broadcast over the lanes reads the row's scale. -/
theorem scale_apply {a b : ℕ} (s : FVec Ideal ⟨1, ![a]⟩ .f32) (h1 : (⟨1, ![a]⟩ : Shape).ShapeCasts ⟨2, ![a, 1]⟩)
    (h2 : (⟨2, ![a, 1]⟩ : Shape).Broadcasts ⟨2, ![a, b]⟩) (r : Fin a) (c : Fin b) :
    broadcastTo ⟨2, ![a, b]⟩ (shapeCast ⟨2, ![a, 1]⟩ s h1) h2 (ix2 r c) = s (ix1 r) :=
  (broadcastTo_a1_ab_apply _ h2 r c 0).trans (shapeCast_a_a1_apply s h1 r 0)

/-- A transposed dequantized gate or up weight at (h, l) is `deq (W (l, h)) (s l)`. -/
theorem wcols_apply (W : Vec Ideal S128x2048 .i32) (s : Vec Ideal S128 .f32) (h : Fin 2048) (l : Fin 128) :
    wcols (F := Ideal) W s (ix2 h l) = deq (W (ix2 l h)) (s (ix1 l)) := by
  unfold wcols
  refine (transpose_ix2_apply (a := 128) (b := 2048) _ transposes_S128x2048_p1_0_S2048x128 h l).trans ?_
  show (FloatOps.sitofp (F := Ideal) .f32 (W (ix2 l h)) - Ideal.ofBits .f32 0x43000000#32)
      * broadcastTo S128x2048 (shapeCast S128x1 s shapeCasts_S128_S128x1) broadcasts_S128x1_S128x2048 (ix2 l h) = _
  rw [scale_apply s shapeCasts_S128_S128x1 broadcasts_S128x1_S128x2048 l h]
  rfl

/-- A transposed dequantized down weight at (l, q) is `deq (Wd (q, l)) (sd q)`. -/
theorem dcols_apply (x5 : Vec Ideal S2048x128 .i32) (x6 : Vec Ideal S2048 .f32) (l : Fin 128) (q : Fin 2048) :
    dcols (F := Ideal) x5 x6 (ix2 l q) = deq (x5 (ix2 q l)) (x6 (ix1 q)) := by
  unfold dcols
  refine (transpose_ix2_apply (a := 2048) (b := 128) _ transposes_S2048x128_p1_0_S128x2048 l q).trans ?_
  show (FloatOps.sitofp (F := Ideal) .f32 (x5 (ix2 q l)) - Ideal.ofBits .f32 0x43000000#32)
      * broadcastTo S2048x128 (shapeCast S2048x1 x6 shapeCasts_S2048_S2048x1) broadcasts_S2048x1_S2048x128 (ix2 q l) = _
  rw [scale_apply x6 shapeCasts_S2048_S2048x1 broadcasts_S2048x1_S2048x128 q l]
  rfl

/-- A pre-activation at (p, l): row p of the input against channel l. -/
theorem pre_apply (x0 : Vec Ideal S512x2048 .f32) (W : Vec Ideal S128x2048 .i32) (s : Vec Ideal S128 .f32) (p : Fin 512) (l : Fin 128) :
    pre (F := Ideal) x0 W s (ix2 p l) = proj (fun h => x0 (ix2 p h)) W s l := by
  unfold pre proj
  refine (matmul_plain_zero_apply (M := 512) (K := 2048) (N := 128) none _ _ p l).trans ?_
  refine Finset.sum_congr rfl fun h _ => ?_
  rw [wcols_apply]
  exact congrArg (· * _) (congrFun (shapeCast_self x0 shapeCasts_S512x2048_S512x2048) (ix2 p h))

/-- A hidden activation at (p, l). -/
theorem hidden_apply (x0 : Vec Ideal S512x2048 .f32) (x1 : Vec Ideal S128x2048 .i32) (x2 : Vec Ideal S128 .f32)
    (x3 : Vec Ideal S128x2048 .i32) (x4 : Vec Ideal S128 .f32) (p : Fin 512) (l : Fin 128) :
    k0_pay3 (F := Ideal) x0 x1 x2 x3 x4 (ix2 p l) = hid (fun h => x0 (ix2 p h)) x1 x2 x3 x4 l := by
  rw [hidden_eq]
  show (pre (F := Ideal) x0 x1 x2 (ix2 p l) * Ideal.logistic (pre (F := Ideal) x0 x1 x2 (ix2 p l))) * pre (F := Ideal) x0 x3 x4 (ix2 p l) = _
  rw [pre_apply, pre_apply]
  rfl

/-- The zero block is zero. -/
theorem zero_apply (j : S512x2048.Idx) : k0_pay2 (F := Ideal) j = 0 := by
  unfold k0_pay2
  rw [shapeCast_self]
  exact Ideal.ofBits_zero_f32

/-- One step adds, at (p, q), the output entry of row p over the step's 128 hidden channels. -/
theorem step_apply (x0 : Vec Ideal S512x2048 .f32) (x1 : Vec Ideal S128x2048 .i32) (x2 : Vec Ideal S128 .f32)
    (x3 : Vec Ideal S128x2048 .i32) (x4 : Vec Ideal S128 .f32) (x5 : Vec Ideal S2048x128 .i32) (x6 : Vec Ideal S2048 .f32)
    (acc : Vec Ideal S512x2048 .f32) (p : Fin 512) (q : Fin 2048) :
    k0_pay1 (F := Ideal) (k0_pay3 x0 x1 x2 x3 x4) (k0_pay4 x5) (k0_pay5 x6) acc (ix2 p q)
      = acc (ix2 p q) + outAt (fun h => x0 (ix2 p h)) x1 x2 x3 x4 x5 x6 q := by
  rw [step_eq, shapeCast_self]
  show acc (ix2 p q) + matmul dot_S512x128_S128x2048_S512x2048_1_0_0_1_n_n none (k0_pay3 (F := Ideal) x0 x1 x2 x3 x4) (dcols x5 x6)
      (constant S512x2048 .f32 0x00000000#32) (ix2 p q) = _
  refine congrArg (acc (ix2 p q) + ·) ?_
  refine (matmul_plain_zero_apply (M := 512) (K := 128) (N := 2048) none _ _ p q).trans ?_
  unfold outAt term
  exact Finset.sum_congr rfl fun l _ => by rw [hidden_apply, dcols_apply]

end Cert.KernelIdeal.StepValue

end
-- ==== Proof.Blocks.lean ====
/-
  The blocks a grid point works on. Point `t` of the 8 × 64 grid is row tile `t / 64`, hidden-channel block `t % 64`.
  Its input rows are rows `512·(t/64) + p` of the flattened input; its gate and up weight rows and scales are rows
  `128·(t%64) + l` of the whole weights and scales; its down weight columns are columns `128·(t%64) + l` of the whole
  down weights; the down scales are taken whole. (A block's coordinate is always block index × block size + the
  coordinate inside the block.)
-/
import proofs.«179088_j27650999451939_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block indices of each operand at every grid point, decided over the grid. -/
theorem index_x : ∀ t : Fin cfg0.N, win0_0.index t 0 = t.val / 64 ∧ win0_0.index t 1 = 0 :=
  (by decide +kernel : ∀ t : Fin grid0.N, win0_0.index t 0 = t.val / 64 ∧ win0_0.index t 1 = 0)
theorem index_gw : ∀ t : Fin cfg0.N, win0_1.index t 0 = t.val % 64 ∧ win0_1.index t 1 = 0 :=
  (by decide +kernel : ∀ t : Fin grid0.N, win0_1.index t 0 = t.val % 64 ∧ win0_1.index t 1 = 0)
theorem index_gs : ∀ t : Fin cfg0.N, win0_2.index t 0 = t.val % 64 :=
  (by decide +kernel : ∀ t : Fin grid0.N, win0_2.index t 0 = t.val % 64)
theorem index_uw : ∀ t : Fin cfg0.N, win0_3.index t 0 = t.val % 64 ∧ win0_3.index t 1 = 0 :=
  (by decide +kernel : ∀ t : Fin grid0.N, win0_3.index t 0 = t.val % 64 ∧ win0_3.index t 1 = 0)
theorem index_us : ∀ t : Fin cfg0.N, win0_4.index t 0 = t.val % 64 :=
  (by decide +kernel : ∀ t : Fin grid0.N, win0_4.index t 0 = t.val % 64)
theorem index_dw : ∀ t : Fin cfg0.N, win0_5.index t 0 = 0 ∧ win0_5.index t 1 = t.val % 64 :=
  (by decide +kernel : ∀ t : Fin grid0.N, win0_5.index t 0 = 0 ∧ win0_5.index t 1 = t.val % 64)
theorem index_ds : ∀ t : Fin cfg0.N, win0_6.index t 0 = 0 :=
  (by decide +kernel : ∀ t : Fin grid0.N, win0_6.index t 0 = 0)
theorem index_out : ∀ t : Fin cfg0.N, win0_7.index t 0 = t.val / 64 ∧ win0_7.index t 1 = 0 :=
  (by decide +kernel : ∀ t : Fin grid0.N, win0_7.index t 0 = t.val / 64 ∧ win0_7.index t 1 = 0)

/-- Row `p` of the point's input rows is row `512·(t/64) + p` of the flattened input. -/
theorem x_apply (c : Dev nD) (t : Fin cfg0.N) (p : Fin 512) (h : Fin 2048) (r : Fin 4096) (hr : r.val = 512 * (t.val / 64) + p.val) :
    (iblk m c 0 t : Vec F S512x2048 .f32) (ix2 p h) = V m c main_v0 (ix2 r h) := by
  unfold iblk
  rw [View.read_apply]
  show V m c main_v0 _ = V m c main_v0 _
  refine congrArg (V m c main_v0) (funext fun a => Fin.ext ?_)
  match a with
  | ⟨0, _⟩ => show win0_0.index t 0 * 512 + 1 * p.val = r.val; rw [(index_x t).1, hr]; omega
  | ⟨1, _⟩ => show win0_0.index t 1 * 2048 + 1 * h.val = h.val; rw [(index_x t).2]; omega

/-- Row `l` of the point's gate weights is row `128·(t%64) + l` of the gate weights. -/
theorem gw_apply (c : Dev nD) (t : Fin cfg0.N) (l : Fin 128) (h : Fin 2048) (r : Fin 8192) (hr : r.val = 128 * (t.val % 64) + l.val) :
    (iblk m c 1 t : Vec F S128x2048 .i32) (ix2 l h) = V m c main_arg1 (ix2 r h) := by
  unfold iblk
  rw [View.read_apply]
  show V m c main_arg1 _ = V m c main_arg1 _
  refine congrArg (V m c main_arg1) (funext fun a => Fin.ext ?_)
  match a with
  | ⟨0, _⟩ => show win0_1.index t 0 * 128 + 1 * l.val = r.val; rw [(index_gw t).1, hr]; omega
  | ⟨1, _⟩ => show win0_1.index t 1 * 2048 + 1 * h.val = h.val; rw [(index_gw t).2]; omega

/-- Entry `l` of the point's gate scales is entry `128·(t%64) + l` of the gate scales. -/
theorem gs_apply (c : Dev nD) (t : Fin cfg0.N) (l : Fin 128) (r : Fin 8192) (hr : r.val = 128 * (t.val % 64) + l.val) :
    (iblk m c 2 t : Vec F S128 .f32) (ix1 l) = V m c main_arg2 (ix1 r) := by
  unfold iblk
  rw [View.read_apply]
  show V m c main_arg2 _ = V m c main_arg2 _
  refine congrArg (V m c main_arg2) (funext fun a => Fin.ext ?_)
  match a with
  | ⟨0, _⟩ => show win0_2.index t 0 * 128 + 1 * l.val = r.val; rw [index_gs t, hr]; omega

/-- Row `l` of the point's up weights is row `128·(t%64) + l` of the up weights. -/
theorem uw_apply (c : Dev nD) (t : Fin cfg0.N) (l : Fin 128) (h : Fin 2048) (r : Fin 8192) (hr : r.val = 128 * (t.val % 64) + l.val) :
    (iblk m c 3 t : Vec F S128x2048 .i32) (ix2 l h) = V m c main_arg3 (ix2 r h) := by
  unfold iblk
  rw [View.read_apply]
  show V m c main_arg3 _ = V m c main_arg3 _
  refine congrArg (V m c main_arg3) (funext fun a => Fin.ext ?_)
  match a with
  | ⟨0, _⟩ => show win0_3.index t 0 * 128 + 1 * l.val = r.val; rw [(index_uw t).1, hr]; omega
  | ⟨1, _⟩ => show win0_3.index t 1 * 2048 + 1 * h.val = h.val; rw [(index_uw t).2]; omega

/-- Entry `l` of the point's up scales is entry `128·(t%64) + l` of the up scales. -/
theorem us_apply (c : Dev nD) (t : Fin cfg0.N) (l : Fin 128) (r : Fin 8192) (hr : r.val = 128 * (t.val % 64) + l.val) :
    (iblk m c 4 t : Vec F S128 .f32) (ix1 l) = V m c main_arg4 (ix1 r) := by
  unfold iblk
  rw [View.read_apply]
  show V m c main_arg4 _ = V m c main_arg4 _
  refine congrArg (V m c main_arg4) (funext fun a => Fin.ext ?_)
  match a with
  | ⟨0, _⟩ => show win0_4.index t 0 * 128 + 1 * l.val = r.val; rw [index_us t, hr]; omega

/-- Column `l` of the point's down weights is column `128·(t%64) + l` of the down weights. -/
theorem dw_apply (c : Dev nD) (t : Fin cfg0.N) (q : Fin 2048) (l : Fin 128) (r : Fin 8192) (hr : r.val = 128 * (t.val % 64) + l.val) :
    (iblk m c 5 t : Vec F S2048x128 .i32) (ix2 q l) = V m c main_arg5 (ix2 q r) := by
  unfold iblk
  rw [View.read_apply]
  show V m c main_arg5 _ = V m c main_arg5 _
  refine congrArg (V m c main_arg5) (funext fun a => Fin.ext ?_)
  match a with
  | ⟨0, _⟩ => show win0_5.index t 0 * 2048 + 1 * q.val = q.val; rw [(index_dw t).1]; omega
  | ⟨1, _⟩ => show win0_5.index t 1 * 128 + 1 * l.val = r.val; rw [(index_dw t).2, hr]; omega

/-- The point's down scales are the down scales. -/
theorem ds_apply (c : Dev nD) (t : Fin cfg0.N) (q : Fin 2048) :
    (iblk m c 6 t : Vec F S2048 .f32) (ix1 q) = V m c main_arg6 (ix1 q) := by
  unfold iblk
  rw [View.read_apply]
  show V m c main_arg6 _ = V m c main_arg6 _
  refine congrArg (V m c main_arg6) (funext fun a => Fin.ext ?_)
  match a with
  | ⟨0, _⟩ => show win0_6.index t 0 * 2048 + 1 * q.val = q.val; rw [index_ds t]; omega

end Cert.KernelIdeal.Blocks

end
-- ==== Proof.Running.lean ====
/-
  The running block across the grid. For a row tile, the steps `0, …, 63` add the 64 blocks of 128 hidden channels one
  after the other into a block that starts at zero: after step `j` of the tile the scratch holds, at local row `p` and
  output `q`, the blocks `0, …, j` of the down projection's sum for the tile's row `512·(tile) + p` accumulated, and at
  the tile's last step the output block is the whole sum — the output entry `outAt` of that row. By induction on the
  grid point; only `0 + a = a` and the order-free accumulation of blocks are used.
-/
import proofs.«179088_j27650999451939_1_alg».proof.Proof.Pieces
import proofs.«179088_j27650999451939_1_alg».proof.Proof.StepValue
import proofs.«179088_j27650999451939_1_alg».proof.Proof.Blocks

noncomputable section

open Idealize.ShloMosaic Idealize.ShloMosaic.TcCoe Idealize.SL.Sem Idealize.ShloMosaic.ValueIdx

namespace Cert.KernelIdeal.Running

open Cert.KernelIdeal Cert.KernelIdeal.Gen Cert.KernelIdeal.Pieces Cert.KernelIdeal.StepValue Cert.KernelIdeal.Blocks
open Cert.GatedMlp Cert.LibBlockRuns
open scoped BigOperators

variable (m : (ℓ : Loc nD τ sig) → Buf (Elt Ideal) ℓ)

/-- The terms of the down projection's sum for row `r` of the flattened input and output `q`, over all 8192 hidden channels. -/
def rowTerm (c : Dev nD) (r : Fin 4096) (q : Fin 2048) : Fin 8192 → EReal :=
  term (fun h => (V m c main_v0 : Vec Ideal S4096x2048 .f32) (ix2 r h)) (V m c main_arg1 : Vec Ideal S8192x2048 .i32)
    (V m c main_arg2 : Vec Ideal S8192 .f32) (V m c main_arg3 : Vec Ideal S8192x2048 .i32) (V m c main_arg4 : Vec Ideal S8192 .f32)
    (V m c main_arg5 : Vec Ideal S2048x8192 .i32) (V m c main_arg6 : Vec Ideal S2048 .f32) q

/-- The output entry for row `r` of the flattened input and output `q`. -/
def rowOut (c : Dev nD) (r : Fin 4096) (q : Fin 2048) : EReal :=
  outAt (fun h => (V m c main_v0 : Vec Ideal S4096x2048 .f32) (ix2 r h)) (V m c main_arg1 : Vec Ideal S8192x2048 .i32)
    (V m c main_arg2 : Vec Ideal S8192 .f32) (V m c main_arg3 : Vec Ideal S8192x2048 .i32) (V m c main_arg4 : Vec Ideal S8192 .f32)
    (V m c main_arg5 : Vec Ideal S2048x8192 .i32) (V m c main_arg6 : Vec Ideal S2048 .f32) q

/-- The output entry is its 64 blocks of 128 hidden channels accumulated. -/
theorem rowOut_eq (c : Dev nD) (r : Fin 4096) (q : Fin 2048) :
    rowOut m c r q = ∑ j ∈ Finset.range 64, block 64 128 rfl (rowTerm m c r q) j :=
  outAt_eq_sum_range (C := 8192) (N := 64) (B := 128) rfl _ _ _ _ _ _ _ q

/-- The step at grid point `t` adds block `t % 64` of the row's sum. -/
theorem step_at (c : Dev nD) (t : Fin cfg0.N) (acc : Vec Ideal S512x2048 .f32) (p : Fin 512) (q : Fin 2048) (r : Fin 4096)
    (hr : r.val = 512 * (t.val / 64) + p.val) :
    step (iblk m c 0 t) (iblk m c 1 t) (iblk m c 2 t) (iblk m c 3 t) (iblk m c 4 t) (iblk m c 5 t) (iblk m c 6 t) acc (ix2 p q) = acc (ix2 p q) + block 64 128 rfl (rowTerm m c r q) (t.val % 64) := by
  have hj : t.val % 64 < 64 := Nat.mod_lt _ (by decide)
  unfold step
  refine (step_apply (iblk m c 0 t) (iblk m c 1 t) (iblk m c 2 t) (iblk m c 3 t) (iblk m c 4 t) (iblk m c 5 t) (iblk m c 6 t) acc p q).trans ?_
  refine congrArg (acc (ix2 p q) + ·) ?_
  have hx : (fun h : Fin 2048 => (iblk m c 0 t : Vec Ideal S512x2048 .f32) (ix2 p h))
      = fun h => (V m c main_v0 : Vec Ideal S4096x2048 .f32) (ix2 r h) := funext fun h => x_apply m c t p h r hr
  have hds : (iblk m c 6 t : Vec Ideal S2048 .f32) = (V m c main_arg6 : Vec Ideal S2048 .f32) :=
    funext fun j => by rw [eq_ix1 j]; exact ds_apply m c t (j 0)
  refine (congrArg (fun x => outAt x (iblk m c 1 t : Vec Ideal S128x2048 .i32) (iblk m c 2 t : Vec Ideal S128 .f32)
    (iblk m c 3 t : Vec Ideal S128x2048 .i32) (iblk m c 4 t : Vec Ideal S128 .f32) (iblk m c 5 t : Vec Ideal S2048x128 .i32)
    (iblk m c 6 t : Vec Ideal S2048 .f32) q) hx).trans ?_
  rw [hds]
  exact outAt_block (C := 8192) (K := 2048) (Q := 2048) (N := 64) (B := 128) rfl (t.val % 64) hj _ _ _ _ _ _ _ _ _ _ _ _
    (fun l h => gw_apply m c t l h _ rfl) (fun l => gs_apply m c t l _ rfl) (fun l h => uw_apply m c t l h _ rfl)
    (fun l => us_apply m c t l _ rfl) (fun q' l => dw_apply m c t q' l _ rfl) q

/-- After grid point `n` the scratch holds the blocks `0, …, n % 64` of the tile's rows accumulated. -/
theorem scratch_eq (c : Dev nD) : ∀ (n : ℕ) (hn : n < cfg0.N) (p : Fin 512) (q : Fin 2048) (r : Fin 4096)
    (hr : r.val = 512 * (n / 64) + p.val),
    (outsAt0 m c n hn).2 (ix2 p q) = ∑ j ∈ Finset.range (n % 64 + 1), block 64 128 rfl (rowTerm m c r q) j := by
  intro n
  induction n with
  | zero =>
    intro hn p q r hr
    have h0 : (⟨0, hn⟩ : Fin cfg0.N).val % 64 = 0 := rfl
    have h1 : ¬(⟨0, hn⟩ : Fin cfg0.N).val % 64 = 63 := fun h => absurd (show (0 : ℕ) % 64 = 63 from h) (by decide)
    rw [outsAt0_A m c ⟨0, hn⟩ h0 h1]
    dsimp only
    rw [scratch_first]
    refine (step_at m c ⟨0, hn⟩ (k0_pay2 (F := Ideal)) p q r hr).trans ?_
    rw [zero_apply, zero_add]
    exact (Finset.sum_range_one _).symm
  | succ n ih =>
    intro hn p q r hr
    have hN : n + 1 < 512 := lt_of_lt_of_eq hn N_0
    by_cases h0 : (n + 1) % 64 = 0
    · have h1 : ¬(n + 1) % 64 = 63 := by omega
      rw [outsAt0_A m c ⟨n + 1, hn⟩ h0 h1]
      dsimp only
      rw [scratch_first]
      refine (step_at m c ⟨n + 1, hn⟩ (k0_pay2 (F := Ideal)) p q r hr).trans ?_
      rw [zero_apply, zero_add]
      show block 64 128 rfl (rowTerm m c r q) ((n + 1) % 64) = _
      rw [h0]
      exact (Finset.sum_range_one _).symm
    · have hr' : r.val = 512 * (n / 64) + p.val := by rw [hr]; omega
      have ih' := ih (Nat.lt_of_succ_lt hn) p q r hr'
      have hs : (n + 1) % 64 = n % 64 + 1 := by omega
      by_cases h1 : (n + 1) % 64 = 63
      · rw [outsAt0_C m c ⟨n + 1, hn⟩ h0 h1]
        dsimp only
        rw [scratch_last]
        refine (step_at m c ⟨n + 1, hn⟩ _ p q r hr).trans ?_
        show (outsAt0 m c n _).2 (ix2 p q) + block 64 128 rfl (rowTerm m c r q) ((n + 1) % 64) = _
        rw [ih', hs]
        exact (Finset.sum_range_succ _ _).symm
      · rw [outsAt0_B m c ⟨n + 1, hn⟩ h0 h1]
        dsimp only
        rw [scratch_mid]
        refine (step_at m c ⟨n + 1, hn⟩ _ p q r hr).trans ?_
        show (outsAt0 m c n _).2 (ix2 p q) + block 64 128 rfl (rowTerm m c r q) ((n + 1) % 64) = _
        rw [ih', hs]
        exact (Finset.sum_range_succ _ _).symm

/-- At the last step of a row tile the output block holds the whole output entries of the tile's rows. -/
theorem output_eq (c : Dev nD) (t : Fin cfg0.N) (h1 : t.val % 64 = 63) (p : Fin 512) (q : Fin 2048) (r : Fin 4096)
    (hr : r.val = 512 * (t.val / 64) + p.val) :
    (outsAt0 m c t.val t.isLt).1 (ix2 p q) = rowOut m c r q := by
  have hN : t.val < 512 := lt_of_lt_of_eq t.isLt N_0
  have h0 : ¬t.val % 64 = 0 := by omega
  have hr' : r.val = 512 * ((t.val - 1) / 64) + p.val := by rw [hr]; omega
  have hprev := scratch_eq m c (t.val - 1) (Nat.lt_of_le_of_lt (Nat.sub_le _ _) t.isLt) p q r hr'
  rw [outsAt0_C m c t h0 h1]
  dsimp only
  rw [output_last]
  refine (step_at m c t _ p q r hr).trans ?_
  rw [hprev, rowOut_eq, h1, show (t.val - 1) % 64 + 1 = 63 from by omega]
  exact (Finset.sum_range_succ _ _).symm

end Cert.KernelIdeal.Running

end
-- ==== Proof.Final.lean ====
/-
  The kernel's result. Every row tile's output block is written back once, at the tile's last step, and the eight
  tiles' blocks tile the flattened result; so the flattened result at (r, q) is the output entry of flattened input
  row r. The program flattens the input's two leading axes before the call (row r = 2048·b + s is input row (b, s)) and
  unflattens the result after it; so the result at (b, s, q) is the whole block `mlp` of the argument arrays.
-/
import proofs.«179088_j27650999451939_1_alg».proof.Proof.Running
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Running
open Cert.GatedMlp

variable (m : (ℓ : Loc nD τ sig) → Buf (Elt Ideal) ℓ) (ρ : Dev nD → PrngReg)

/-- The flattened result: at (r, q) the output entry `q` of flattened input row `r`. -/
def flat (c : Dev nD) : Vec Ideal S4096x2048 .f32 := fun i => rowOut m c (i 0) (i 1)

/-- What a row tile's last step writes back is the tile's block of the flattened result. -/
theorem flushed_eq (c : Dev nD) (t : Fin cfg0.N) (hf : (cfg0.win 7).flush t = true) :
    (dats m 0 c).flushed 7 t = ((cfg0.win 7).blk t).view.read (Elt Ideal) (flat m c) := by
  have h1 : t.val % 64 = 63 := (flush0_7 t).mp hf
  have hN : t.val < 512 := lt_of_lt_of_eq t.isLt N_0
  show (cfg0.win 7).cut (grid0.coords t) ((dats m 0 c).after 7 t) = _
  rw [after0_7]
  funext y
  obtain ⟨p, q, rfl⟩ : ∃ (p : Fin 512) (q : Fin 2048), y = ix2 p q := ⟨y 0, y 1, eq_ix2 y⟩
  rw [View.read_apply]
  have hp : p.val < 512 := p.isLt
  have hr : (⟨512 * (t.val / 64) + p.val, by omega⟩ : Fin 4096).val = 512 * (t.val / 64) + p.val := rfl
  refine (output_eq m c t h1 p q _ hr).trans ?_
  show rowOut m c _ q = rowOut m c ((((cfg0.win 7).blk t).view.emb (ix2 p q)) 0) ((((cfg0.win 7).blk t).view.emb (ix2 p q)) 1)
  obtain ⟨e0, e1⟩ := index_out t
  congr 1
  · apply Fin.ext; show 512 * (t.val / 64) + p.val = win0_7.index t 0 * 512 + 1 * p.val; rw [e0]; omega
  · apply Fin.ext; show q.val = win0_7.index t 1 * 2048 + 1 * q.val; rw [e1]; omega

/-- Every entry of the flattened result is in the block some tile's last step writes back. -/
theorem cover (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  have hN : cfg0.N = 512 := N_0
  obtain ⟨t, ht⟩ : ∃ t : Fin cfg0.N, t.val = 64 * ((i 0).val / 512) + 63 := ⟨⟨64 * ((i 0).val / 512) + 63, by rw [hN]; omega⟩, rfl⟩
  refine ⟨t, (flush0_7 t).mpr (by rw [ht]; omega), ?_⟩
  show i ∈ ((View.whole main_v1).slice (win0_7.rect t)).set
  rw [View.set_slice_whole, Rect.mem_set_unit]
  obtain ⟨e0, e1⟩ := index_out t
  intro a
  match a with
  | ⟨0, _⟩ =>
    show win0_7.index t 0 * 512 ≤ (i 0).val ∧ (i 0).val < win0_7.index t 0 * 512 + 512
    rw [e0, ht]; omega
  | ⟨1, _⟩ =>
    show win0_7.index t 1 * 2048 ≤ (i 1).val ∧ (i 1).val < win0_7.index t 1 * 2048 + 2048
    rw [e1]; omega

/-- The flattened result array after the run. -/
theorem final (c : Dev nD) : (dats m 0 c).arrAt 7 cfg0.N = flat m c :=
  (dats m 0 c).arrAt_eq_of_cover 7 (flat m c) (flushed_eq m c) cover

/-- The flattened input is the input with its two leading axes merged. -/
theorem flat_input (c : Dev nD) :
    (V m c main_v0 : Vec Ideal S4096x2048 .f32)
      = shapeCast S4096x2048 (m ((c : Thread nD τ).loc main_arg0)) shapeCasts_S2x2048x2048_S4096x2048 := by
  show StableHlo.after hostOps0 (fun b => m (c, b)) (Proc.devRef .tc main_v0) = _
  after_results
  rfl

/-- The result array is the flattened result with its leading axis split again. -/
theorem tail_eq (c : Dev nD) :
    Pipeline.afterTail₀ cfgs (dats m) 0 (V0 m) [hostOps1] c main_v2
      = shapeCast S2x2048x2048 (flat m c) shapeCasts_S4096x2048_S2x2048x2048 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = flat m c := (Pipeline.withArrays_arr spec0 launch0.win.arr_inj c _ _ 7).trans (final m c)
  rw [hw]
  rfl

/-- Row `2048·b + s` of the flattened input is input row (b, s). -/
theorem input_row (c : Dev nD) (b : Fin 2) (s : Fin 2048) (h : Fin 2048) (r : Fin 4096) (hr : r.val = 2048 * b.val + s.val) :
    (V m c main_v0 : Vec Ideal S4096x2048 .f32) (ix2 r h) = m ((c : Thread nD τ).loc main_arg0) (ix3 b s h) := by
  rw [flat_input]
  exact shapeCast_apply _ shapeCasts_S2x2048x2048_S4096x2048 (ix2 r h) (ix3 b s h) (by
    rw [Shape.rowMajor_val_three, Shape.rowMajor_val_two]
    show (b.val * 2048 + s.val) * 2048 + h.val = r.val * 2048 + h.val
    rw [hr]; omega)

/-- The result, unflattened, is the whole block of the argument arrays. -/
theorem result_eq (c : Dev nD) :
    shapeCast S2x2048x2048 (flat m c) shapeCasts_S4096x2048_S2x2048x2048
      = mlp (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext i
  obtain ⟨b, s, q, rfl⟩ : ∃ (b : Fin 2) (s : Fin 2048) (q : Fin 2048), i = ix3 b s q := ⟨i 0, i 1, i 2, eq_ix3 i⟩
  have hb : b.val < 2 := b.isLt
  have hs : s.val < 2048 := s.isLt
  have hr : (⟨2048 * b.val + s.val, by omega⟩ : Fin 4096).val = 2048 * b.val + s.val := rfl
  refine (shapeCast_apply (flat m c) shapeCasts_S4096x2048_S2x2048x2048 (ix3 b s q) (ix2 ⟨2048 * b.val + s.val, by omega⟩ q) (by
    rw [Shape.rowMajor_val_two, Shape.rowMajor_val_three]
    show (2048 * b.val + s.val) * 2048 + q.val = (b.val * 2048 + s.val) * 2048 + q.val
    omega)).trans ?_
  rw [mlp_apply]
  show rowOut m c _ q = _
  unfold rowOut
  have hx : (fun h : Fin 2048 => (V m c main_v0 : Vec Ideal S4096x2048 .f32) (ix2 ⟨2048 * b.val + s.val, by omega⟩ h))
      = fun h => m ((c : Thread nD τ).loc main_arg0) (ix3 b s h) := funext fun h => input_row m c b s h _ hr
  rw [hx, V_main_arg1, V_main_arg2, V_main_arg3, V_main_arg4, V_main_arg5, V_main_arg6]

/-- The run, read: the result array at the whole block of the argument arrays, the arguments unchanged. -/
theorem run : θ_run defs (onTc (τ := τ) (main (F := Ideal))) ⟨m, fun _ => 0, ρ⟩ fun r => ∀ c : Dev nD,
      r.2.mem ((c.tc : Thread nD τ).loc main_v2)
        = mlp (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Final

end
-- ==== Proof.RefValue.lean ====
/-
  The reference, entry by entry, at the ideal values. The reference dequantizes the three weight matrices whole, takes
  the two projections of every input row as contractions over the 2048 input entries, forms the hidden activations
  `g · (1 / (1 + e^(−g))) · u`, and contracts them with the down weights over all 8192 hidden channels. At the ideal
  values a contraction is the plain sum, `1 / (1 + e^(−g))` is the logistic of `g` by definition, and the two
  broadcasts of a scale vector read the channel's scale; so the result at (b, s, q) is `outAt` of input row (b, s) at
  output q.
-/
import proofs.«179088_j27650999451939_1_alg».proof.Proof.Gen.ReferenceIdeal.Read
import proofs.«179088_j27650999451939_1_alg».proof.Proof.Spec

noncomputable section

namespace Cert.ReferenceIdeal.RefValue

open Idealize.ShloMosaic Idealize.ShloMosaic.ValueIdx
open Cert.ReferenceIdeal Cert.ReferenceIdeal.Read
open Cert.GatedMlp
open scoped BigOperators

/-- A dequantized gate weight at (k, h). -/
theorem gate_weight_apply (x1 : (⟨S8192x2048, .i32⟩ : BufTy).Contents (Elt Ideal)) (x2 : (⟨S8192, .f32⟩ : BufTy).Contents (Elt Ideal))
    (k : Fin 8192) (h : Fin 2048) : val_main_v5 (F := Ideal) x1 x2 (ix2 k h) = deq (x1 (ix2 k h)) (x2 (ix1 k)) := by
  have e : idx_main_v3 (idx_main_v4 (ix2 k h)) = ix1 k := funext fun a => Fin.ext (by match a with | ⟨0, _⟩ => rfl)
  rw [val_main_v5_apply, val_main_v2_apply, val_main_v0_apply, val_main_v1_apply, val_main_cst_apply, val_main_v4_apply,
    val_main_v3_apply, e]
  rfl

/-- A dequantized up weight at (k, h). -/
theorem up_weight_apply (x3 : (⟨S8192x2048, .i32⟩ : BufTy).Contents (Elt Ideal)) (x4 : (⟨S8192, .f32⟩ : BufTy).Contents (Elt Ideal))
    (k : Fin 8192) (h : Fin 2048) : val_main_v11 (F := Ideal) x3 x4 (ix2 k h) = deq (x3 (ix2 k h)) (x4 (ix1 k)) := by
  have e : idx_main_v9 (idx_main_v10 (ix2 k h)) = ix1 k := funext fun a => Fin.ext (by match a with | ⟨0, _⟩ => rfl)
  rw [val_main_v11_apply, val_main_v8_apply, val_main_v6_apply, val_main_v7_apply, val_main_cst_0_apply, val_main_v10_apply,
    val_main_v9_apply, e]
  rfl

/-- A dequantized down weight at (q, k). -/
theorem down_weight_apply (x5 : (⟨S2048x8192, .i32⟩ : BufTy).Contents (Elt Ideal)) (x6 : (⟨S2048, .f32⟩ : BufTy).Contents (Elt Ideal))
    (q : Fin 2048) (k : Fin 8192) : val_main_v17 (F := Ideal) x5 x6 (ix2 q k) = deq (x5 (ix2 q k)) (x6 (ix1 q)) := by
  have e : idx_main_v15 (idx_main_v16 (ix2 q k)) = ix1 q := funext fun a => Fin.ext (by match a with | ⟨0, _⟩ => rfl)
  rw [val_main_v17_apply, val_main_v14_apply, val_main_v12_apply, val_main_v13_apply, val_main_cst_1_apply, val_main_v16_apply,
    val_main_v15_apply, e]
  rfl

/-- The gate pre-activation at (b, s, k). -/
theorem gate_apply (x0 : (⟨S2x2048x2048, .f32⟩ : BufTy).Contents (Elt Ideal)) (x1 : (⟨S8192x2048, .i32⟩ : BufTy).Contents (Elt Ideal))
    (x2 : (⟨S8192, .f32⟩ : BufTy).Contents (Elt Ideal)) (b : Fin 2) (s : Fin 2048) (k : Fin 8192) :
    val_main_v18 (F := Ideal) x0 x1 x2 (ix3 b s k) = proj (fun h => x0 (ix3 b s h)) x1 x2 k := by
  rw [val_main_v18_apply]
  unfold proj
  refine Finset.sum_congr rfl fun h _ => ?_
  have el : lidx_main_v18 (ix3 b s k) h = ix3 b s h := funext fun a => Fin.ext (by
    match a with | ⟨0, _⟩ => rfl | ⟨1, _⟩ => rfl | ⟨2, _⟩ => rfl)
  have er : ridx_main_v18 (ix3 b s k) h = ix2 k h := funext fun a => Fin.ext (by match a with | ⟨0, _⟩ => rfl | ⟨1, _⟩ => rfl)
  rw [el, er, gate_weight_apply]

/-- The up pre-activation at (b, s, k). -/
theorem up_apply (x0 : (⟨S2x2048x2048, .f32⟩ : BufTy).Contents (Elt Ideal)) (x3 : (⟨S8192x2048, .i32⟩ : BufTy).Contents (Elt Ideal))
    (x4 : (⟨S8192, .f32⟩ : BufTy).Contents (Elt Ideal)) (b : Fin 2) (s : Fin 2048) (k : Fin 8192) :
    val_main_v19 (F := Ideal) x0 x3 x4 (ix3 b s k) = proj (fun h => x0 (ix3 b s h)) x3 x4 k := by
  rw [val_main_v19_apply]
  unfold proj
  refine Finset.sum_congr rfl fun h _ => ?_
  have el : lidx_main_v19 (ix3 b s k) h = ix3 b s h := funext fun a => Fin.ext (by
    match a with | ⟨0, _⟩ => rfl | ⟨1, _⟩ => rfl | ⟨2, _⟩ => rfl)
  have er : ridx_main_v19 (ix3 b s k) h = ix2 k h := funext fun a => Fin.ext (by match a with | ⟨0, _⟩ => rfl | ⟨1, _⟩ => rfl)
  rw [el, er, up_weight_apply]

/-- The hidden activation at (b, s, k): the reference's `g · (1 / (1 + e^(−g)))` is `g` times its logistic. -/
theorem hidden_apply (x0 : (⟨S2x2048x2048, .f32⟩ : BufTy).Contents (Elt Ideal)) (x1 : (⟨S8192x2048, .i32⟩ : BufTy).Contents (Elt Ideal))
    (x2 : (⟨S8192, .f32⟩ : BufTy).Contents (Elt Ideal)) (x3 : (⟨S8192x2048, .i32⟩ : BufTy).Contents (Elt Ideal))
    (x4 : (⟨S8192, .f32⟩ : BufTy).Contents (Elt Ideal)) (b : Fin 2) (s : Fin 2048) (k : Fin 8192) :
    val_main_v21 (F := Ideal) x0 x1 x2 x3 x4 (ix3 b s k) = hid (fun h => x0 (ix3 b s h)) x1 x2 x3 x4 k := by
  rw [val_main_v21_apply, val_main_v20_apply, val_main_call0_v5_apply, val_main_call0_v4_apply, val_main_call0_cst_0_apply,
    val_main_call0_v3_apply, val_main_call0_v2_apply, val_main_call0_cst_apply, val_main_call0_v1_apply, val_main_call0_v0_apply,
    gate_apply, up_apply]
  unfold hid
  show (proj (fun h => x0 (ix3 b s h)) x1 x2 k * Ideal.div (Ideal.ofBits .f32 0x3F800000#32)
      (Ideal.ofBits .f32 0x3F800000#32 + Ideal.exp (-(proj (fun h => x0 (ix3 b s h)) x1 x2 k)))) * proj (fun h => x0 (ix3 b s h)) x3 x4 k = _
  rw [one_bits]
  rfl

/-- The reference's result at (b, s, q). -/
theorem result_apply (x0 : (⟨S2x2048x2048, .f32⟩ : BufTy).Contents (Elt Ideal)) (x1 : (⟨S8192x2048, .i32⟩ : BufTy).Contents (Elt Ideal))
    (x2 : (⟨S8192, .f32⟩ : BufTy).Contents (Elt Ideal)) (x3 : (⟨S8192x2048, .i32⟩ : BufTy).Contents (Elt Ideal))
    (x4 : (⟨S8192, .f32⟩ : BufTy).Contents (Elt Ideal)) (x5 : (⟨S2048x8192, .i32⟩ : BufTy).Contents (Elt Ideal))
    (x6 : (⟨S2048, .f32⟩ : BufTy).Contents (Elt Ideal)) (b : Fin 2) (s : Fin 2048) (q : Fin 2048) :
    val_main_v22 (F := Ideal) x0 x1 x2 x3 x4 x5 x6 (ix3 b s q) = outAt (fun h => x0 (ix3 b s h)) x1 x2 x3 x4 x5 x6 q := by
  rw [val_main_v22_apply]
  unfold outAt term
  refine Finset.sum_congr rfl fun k _ => ?_
  have el : lidx_main_v22 (ix3 b s q) k = ix3 b s k := funext fun a => Fin.ext (by
    match a with | ⟨0, _⟩ => rfl | ⟨1, _⟩ => rfl | ⟨2, _⟩ => rfl)
  have er : ridx_main_v22 (ix3 b s q) k = ix2 q k := funext fun a => Fin.ext (by match a with | ⟨0, _⟩ => rfl | ⟨1, _⟩ => rfl)
  rw [el, er, hidden_apply, down_weight_apply]

end Cert.ReferenceIdeal.RefValue

end
-- ==== Proof.lean ====
/-
  The gated feed-forward block with quantized weights: the kernel against its reference, over the extended reals.

  Both programs compute, for every input row (b, s) and output q, the same number
    ∑ᵢ (gᵢ · logistic gᵢ · uᵢ) · deq (Wd q i) (sd q),   gᵢ = ∑ₕ x h · deq (Wg i h) (sg i),   uᵢ likewise from Wu, su,
  where deq w s = (w − 128) · s dequantizes a stored integer (Proof/Spec.lean: `mlp`).
  The kernel flattens the rows, and for each tile of 512 rows walks the 8192 hidden channels in 64 blocks of 128,
  adding each block's contribution to a running block that starts at zero and is written out after the last block
  (Proof/Pieces.lean, Proof/StepValue.lean, Proof/Blocks.lean, Proof/Running.lean, Proof/Final.lean); the reference
  takes the three contractions whole (Proof/RefValue.lean). The two agree because a sum over 8192 = 64 · 128 indices
  is its 64 consecutive blocks accumulated in order (Proof/LibBlockSumGen.lean, Proof/LibBlockRuns.lean), rounding to
  the 16-bit format is the identity at the ideal values, and the reference's 1 / (1 + e^(−g)) is the logistic of g.
  Nothing needs the inputs to be finite: only commutativity and associativity of the sum and 0 + a = a are used.
  The idealization rewrote nothing, so the kernel as printed and its idealization are one text.
-/
import proofs.«179088_j27650999451939_1_alg».proof.Defs
import proofs.«179088_j27650999451939_1_alg».proof.Proof.Gen.Kernel
import proofs.«179088_j27650999451939_1_alg».proof.Proof.Gen.Kernel.Skeleton
import proofs.«179088_j27650999451939_1_alg».proof.Proof.Gen.Kernel.Launch
import proofs.«179088_j27650999451939_1_alg».proof.Proof.Gen.Kernel.Points
import proofs.«179088_j27650999451939_1_alg».proof.Proof.Gen.Kernel.Frame
import proofs.«179088_j27650999451939_1_alg».proof.Proof.Gen.KernelIdeal
import proofs.«179088_j27650999451939_1_alg».proof.Proof.Gen.KernelIdeal.Skeleton
import proofs.«179088_j27650999451939_1_alg».proof.Proof.Gen.KernelIdeal.Launch
import proofs.«179088_j27650999451939_1_alg».proof.Proof.Gen.KernelIdeal.Points
import proofs.«179088_j27650999451939_1_alg».proof.Proof.Gen.KernelIdeal.Frame
import proofs.«179088_j27650999451939_1_alg».proof.Proof.Gen.ReferenceIdeal
import proofs.«179088_j27650999451939_1_alg».proof.Proof.Gen.ReferenceIdeal.Run
import proofs.«179088_j27650999451939_1_alg».proof.Proof.Gen.ReferenceIdeal.Read
import proofs.«179088_j27650999451939_1_alg».proof.Proof.Gen.Pre_finite_inputs
import proofs.«179088_j27650999451939_1_alg».proof.Proof.Final
import proofs.«179088_j27650999451939_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result array and the reference's both end at the whole block `mlp` of argument
    arrays that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v22_eq, a0, a1, a2, a3, a4, a5, a6]
  funext i
  obtain ⟨b, s, q, rfl⟩ : ∃ (b : Fin 2) (s : Fin 2048) (q : Fin 2048), i = ix3 b s q := ⟨i 0, i 1, i 2, eq_ix3 i⟩
  exact Cert.ReferenceIdeal.RefValue.result_apply _ _ _ _ _ _ _ b s q

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
